-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_3136" .f32 0x39A72F05#32 ((1 / 3136 : ℝ) : EReal)
  ∧ IdealRules.named_const.Statement Cert.KernelIdeal.κ "inv_3135" .f32 0x39A73CAC#32 ((1 / 3135 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S32 : Shape := ⟨1, ![32]⟩
abbrev S32x64 : Shape := ⟨2, ![32, 64]⟩
abbrev S64x256 : Shape := ⟨2, ![64, 256]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S32x64 : S_.BroadcastsInDim S32x64 (![] : Fin 0 → Fin S32x64.rank)
  reducesTo_S32x64_S_d0_1 : S32x64.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg5 : FVec F S64x256 .f32) (main_arg6 : FVec F S64x256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x256 .f32 := Host.absf main_arg5
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg6
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  main_v28

def fn {F : FTy → Type} [FloatOps F] (main_arg0 : FVec F S32x256x56x56 .f32) (main_arg1 : IVec S32 32) (main_arg2 : FVec F S32x64 .f32) (main_arg3 : FVec F S64x256 .f32) (main_arg4 : FVec F S64x256 .f32) (main_arg5 : FVec F S64x256 .f32) (main_arg6 : FVec F S64x256 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_arg6 main_v13 main_v16
-- ==== Kernel.lean ====
abbrev S32x256x56x56 : Shape := ⟨4, ![32, 256, 56, 56]⟩
abbrev S32 : Shape := ⟨1, ![32]⟩
abbrev S32x64 : Shape := ⟨2, ![32, 64]⟩
abbrev S64x256 : Shape := ⟨2, ![64, 256]⟩
abbrev S32x256 : Shape := ⟨2, ![32, 256]⟩
abbrev S_ : Shape := ⟨0, ![]⟩
abbrev S32x1 : Shape := ⟨2, ![32, 1]⟩
abbrev S8192x3136 : Shape := ⟨2, ![8192, 3136]⟩
abbrev S8192x1 : Shape := ⟨2, ![8192, 1]⟩
abbrev S256x3136 : Shape := ⟨2, ![256, 3136]⟩
abbrev S256x1 : Shape := ⟨2, ![256, 1]⟩
abbrev S256 : Shape := ⟨1, ![256]⟩

abbrev nBuf : Space → Nat
  | .hbm => 24
  | .vmem => 8
  | .smem => 0
  | _ => 0

abbrev bufTy : (tb : Table) → Fin (tcTables nBuf tb) → BufTy
  | .hbm, ⟨0, _⟩ => ⟨S32x256x56x56, .f32⟩
  | .hbm, ⟨1, _⟩ => ⟨S32, .i32⟩
  | .hbm, ⟨2, _⟩ => ⟨S32x64, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S32x256, .f32⟩
  | .hbm, ⟨8, _⟩ => ⟨S32x256, .f32⟩
  | .hbm, ⟨9, _⟩ => ⟨S32x256, .f32⟩
  | .hbm, ⟨10, _⟩ => ⟨S32x256, .f32⟩
  | .hbm, ⟨11, _⟩ => ⟨S_, .i32⟩
  | .hbm, ⟨12, _⟩ => ⟨S32, .i32⟩
  | .hbm, ⟨13, _⟩ => ⟨S32, .i1⟩
  | .hbm, ⟨14, _⟩ => ⟨S32x1, .i1⟩
  | .hbm, ⟨15, _⟩ => ⟨S32x256, .i1⟩
  | .hbm, ⟨16, _⟩ => ⟨S32x256, .f32⟩
  | .hbm, ⟨17, _⟩ => ⟨S32x256, .i1⟩
  | .hbm, ⟨18, _⟩ => ⟨S32x256, .f32⟩
  | .hbm, ⟨19, _⟩ => ⟨S8192x3136, .f32⟩
  | .hbm, ⟨20, _⟩ => ⟨S8192x1, .f32⟩
  | .hbm, ⟨21, _⟩ => ⟨S8192x1, .f32⟩
  | .hbm, ⟨22, _⟩ => ⟨S8192x3136, .f32⟩
  | .hbm, ⟨23, _⟩ => ⟨S32x256x56x56, .f32⟩
  | .local _ .vmem, ⟨0, _⟩ => ⟨S256x3136, .f32⟩
  | .local _ .vmem, ⟨1, _⟩ => ⟨S256x3136, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x3136, .f32⟩
  | .local _ .vmem, ⟨7, _⟩ => ⟨S256x3136, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_v7 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3136 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32 : S_.BroadcastsInDim S32 (![] : Fin 0 → Fin S32.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  shapeCasts_S32x256x56x56_S8192x3136 : S32x256x56x56.ShapeCasts S8192x3136
  shapeCasts_S32x256_S8192x1 : S32x256.ShapeCasts S8192x1
  inb_S256x3136_S256x3136_0_0 : ∀ a, (![0, 0] : Fin 2 → Nat) a + S256x3136.size a ≤ S256x3136.size a
  h_S256x3136 : 0 < S256x3136.numel
  shapeCasts_S256x3136_S256x3136 : S256x3136.ShapeCasts S256x3136
  reduces_S256x3136_S256 : S256x3136.Reduces [1] S256
  shapeCasts_S256_S256x1 : S256.ShapeCasts S256x1
  broadcasts_S256x1_S256x3136 : S256x1.Broadcasts S256x3136
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S8192x3136_S32x256x56x56 : S8192x3136.ShapeCasts S32x256x56x56
  dot_S32x64_S64x256_S32x256_1_0_0_1_n_n_wf : DotDims.WF S32x64 S64x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3136.size a ≤ S8192x3136.size a
  hwx0_0 : ∀ i : grid0.Coords, EltTy.bits .f32 = 32 ∨ (Rect.block (s := S8192x3136) S256x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3136.size a ≤ S8192x3136.size a
  hwx0_3 : ∀ i : grid0.Coords, EltTy.bits .f32 = 32 ∨ (Rect.block (s := S8192x3136) S256x3136.size (cc0_transform_3 i) (hinb0_3 i)).WholeWords (EltTy.packing .f32)

variable [Facts₀]

def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf

abbrev win0_0 : Pipeline.Window sig grid0 :=
  Pipeline.Window.ofSpec (Memref.whole main_v9) S256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S256x3136.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S32 : Shape := ⟨1, ![32]⟩
abbrev S32x64 : Shape := ⟨2, ![32, 64]⟩
abbrev S64x256 : Shape := ⟨2, ![64, 256]⟩
abbrev S_ : Shape := ⟨0, ![]⟩
abbrev S32x256 : Shape := ⟨2, ![32, 256]⟩
abbrev S32x256x1x1 : Shape := ⟨4, ![32, 256, 1, 1]⟩
abbrev S32x1 : Shape := ⟨2, ![32, 1]⟩

abbrev nBuf : Space → Nat
  | .hbm => 63
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S32, .i32⟩
  | .hbm, ⟨2, _⟩ => ⟨S32x64, .f32⟩
  | .hbm, ⟨3, _⟩ => ⟨S64x256, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S_, .f32⟩
  | .hbm, ⟨8, _⟩ => ⟨S32x256, .f32⟩
  | .hbm, ⟨9, _⟩ => ⟨S32x256x1x1, .f32⟩
  | .hbm, ⟨10, _⟩ => ⟨S_, .f32⟩
  | .hbm, ⟨11, _⟩ => ⟨S32x256x1x1, .f32⟩
  | .hbm, ⟨12, _⟩ => ⟨S32x256x1x1, .f32⟩
  | .hbm, ⟨13, _⟩ => ⟨S_, .i32⟩
  | .hbm, ⟨14, _⟩ => ⟨S_, .f32⟩
  | .hbm, ⟨15, _⟩ => ⟨S32x256, .f32⟩
  | .hbm, ⟨16, _⟩ => ⟨S32x256x1x1, .f32⟩
  | .hbm, ⟨17, _⟩ => ⟨S_, .f32⟩
  | .hbm, ⟨18, _⟩ => ⟨S32x256x1x1, .f32⟩
  | .hbm, ⟨19, _⟩ => ⟨S32x256x1x1, .f32⟩
  | .hbm, ⟨20, _⟩ => ⟨S32x256x56x56, .f32⟩
  | .hbm, ⟨21, _⟩ => ⟨S32x256x56x56, .f32⟩
  | .hbm, ⟨22, _⟩ => ⟨S32x256x56x56, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S32x256, .f32⟩
  | .hbm, ⟨28, _⟩ => ⟨S32x256x1x1, .f32⟩
  | .hbm, ⟨29, _⟩ => ⟨S32x256x1x1, .f32⟩
  | .hbm, ⟨30, _⟩ => ⟨S32x256x1x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S32x256x1x1, .f32⟩
  | .hbm, ⟨36, _⟩ => ⟨S32x256x1x1, .f32⟩
  | .hbm, ⟨37, _⟩ => ⟨S32x256x56x56, .f32⟩
  | .hbm, ⟨38, _⟩ => ⟨S32x256x56x56, .f32⟩
  | .hbm, ⟨39, _⟩ => ⟨S_, .f32⟩
  | .hbm, ⟨40, _⟩ => ⟨S32x256x1x1, .f32⟩
  | .hbm, ⟨41, _⟩ => ⟨S32x256x1x1, .f32⟩
  | .hbm, ⟨42, _⟩ => ⟨S32x256x1x1, .f32⟩
  | .hbm, ⟨43, _⟩ => ⟨S32x256x56x56, .f32⟩
  | .hbm, ⟨44, _⟩ => ⟨S32x256x56x56, .f32⟩
  | .hbm, ⟨45, _⟩ => ⟨S32x256, .f32⟩
  | .hbm, ⟨46, _⟩ => ⟨S32x256, .f32⟩
  | .hbm, ⟨47, _⟩ => ⟨S32x256, .f32⟩
  | .hbm, ⟨48, _⟩ => ⟨S32x256, .f32⟩
  | .hbm, ⟨49, _⟩ => ⟨S_, .i32⟩
  | .hbm, ⟨50, _⟩ => ⟨S32, .i32⟩
  | .hbm, ⟨51, _⟩ => ⟨S32, .i1⟩
  | .hbm, ⟨52, _⟩ => ⟨S32x1, .i1⟩
  | .hbm, ⟨53, _⟩ => ⟨S32x256, .i1⟩
  | .hbm, ⟨54, _⟩ => ⟨S32x256, .f32⟩
  | .hbm, ⟨55, _⟩ => ⟨S32x256, .i1⟩
  | .hbm, ⟨56, _⟩ => ⟨S32x256, .f32⟩
  | .hbm, ⟨57, _⟩ => ⟨S32x256x1x1, .f32⟩
  | .hbm, ⟨58, _⟩ => ⟨S32x256x56x56, .f32⟩
  | .hbm, ⟨59, _⟩ => ⟨S32x256x56x56, .f32⟩
  | .hbm, ⟨60, _⟩ => ⟨S32x256x1x1, .f32⟩
  | .hbm, ⟨61, _⟩ => ⟨S32x256x56x56, .f32⟩
  | .hbm, ⟨62, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_c_2 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_call1_v0 : Ref sig .tc := ⟨.hbm, 53, rfl⟩
abbrev main_v19 : Ref sig .tc := ⟨.hbm, 54, rfl⟩
abbrev main_call2_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩

abbrev nD : Nat := 1
abbrev τ : Topo := Topo.v7x

variable {F : FTy → Type} [FloatOps F]

class Facts₀ : Prop where
  reducesTo_S32x256x56x56_S32x256_d2_3 : S32x256x56x56.ReducesTo [2, 3] S32x256
  h_S_ : 0 < S_.numel
  bcast_S32x256_S32x256x1x1_0_1 : S32x256.BroadcastsInDim S32x256x1x1 (![0, 1] : Fin 2 → Fin S32x256x1x1.rank)
  bcast_S_S32x256x1x1 : S_.BroadcastsInDim S32x256x1x1 (![] : Fin 0 → Fin S32x256x1x1.rank)
  bcast_S32x256x1x1_S32x256x56x56_0_1_2_3 : S32x256x1x1.BroadcastsInDim S32x256x56x56 (![0, 1, 2, 3] : Fin 4 → Fin S32x256x56x56.rank)
  bcast_S_S32 : S_.BroadcastsInDim S32 (![] : Fin 0 → Fin S32.rank)
  bcast_S32_S32x1_0 : S32.BroadcastsInDim S32x1 (![0] : Fin 1 → Fin S32x1.rank)
  bcast_S32x1_S32x256_0_1 : S32x1.BroadcastsInDim S32x256 (![0, 1] : Fin 2 → Fin S32x256.rank)
  dot_S32x64_S64x256_S32x256_1_0_0_1_n_n_wf : DotDims.WF S32x64 S64x256 S32x256 [1] [0] [0] [1] [] []

variable [Facts₀]

def dot_S32x64_S64x256_S32x256_1_0_0_1_n_n : DotDims S32x64 S64x256 S32x256 where
  lhsContracting := [1]
  rhsContracting := [0]
  lhsNonContracting := [0]
  rhsNonContracting := [1]
  lhsBatch := []
  rhsBatch := []
  wf := dot_S32x64_S64x256_S32x256_1_0_0_1_n_n_wf

class Facts : Prop extends Facts₀ where

variable [Facts]
-- ==== Proof.Spec.lean ====
/-
  The function both programs compute, stated once over coordinates, and the one law that joins them.

  For an activation array `x` of shape [32, 256, 56, 56] and two [32, 256] arrays `μ`, `σ` (the mixed prototype
  mean and standard deviation), the result at (b, c, h, w) is

      (x[b,c,h,w] − m) · (v + ε)^(-1/2) · σ[b,c] + μ[b,c],

  where `m` is the mean of the 56·56 = 3136 entries of channel (b, c) — their sum times 1/3136 — and `v` is their
  unbiased variance — the sum of the squared deviations times 1/3135. Everything is read on the extended reals.

  One side multiplies a deviation by the reciprocal square root of `v + ε`, the other divides it by the square root.
  On the extended reals these agree for EVERY deviation (infinite ones too) as soon as `v + ε` is above zero, and it
  always is: a square is never below zero (`⊥ · ⊥ = ⊤`), so neither is a sum of squares nor its product with 1/3135,
  and `ε` is a positive real. So no finiteness of the inputs is used anywhere.
-/
import Idealize.ShloMosaic.PureOps.Ideal
import Idealize.ShloMosaic.PureOps.Ideal.Laws
import Idealize.ShloMosaic.Lib.ValueIdx

noncomputable section

namespace Cert.NormAffine

open Idealize.ShloMosaic Idealize.ShloMosaic.ValueIdx

/-- The activations' shape, and the shape of the per-channel affine parameters. -/
abbrev SX : Shape := ⟨4, ![32, 256, 56, 56]⟩
abbrev SP : Shape := ⟨2, ![32, 256]⟩

/-- The stabilizer added to the variance: the f32 nearest to 1e-5, the same word in both programs. -/
def eps : EReal := Ideal.ofBits .f32 0x3727C5AC#32

/-- The sum of a channel's 56 × 56 entries. -/
def chanSum (y : Fin 56 → Fin 56 → EReal) : EReal := ∑ h : Fin 56, ∑ w : Fin 56, y h w

/-- The mean of channel (b, c). -/
def mean (x : SX.Idx → EReal) (b : Fin 32) (c : Fin 256) : EReal :=
  chanSum (fun h w => x (ix4 b c h w)) * ((1 / 3136 : ℝ) : EReal)

/-- An entry's deviation from its channel's mean. -/
def dev (x : SX.Idx → EReal) (b : Fin 32) (c : Fin 256) (h w : Fin 56) : EReal :=
  x (ix4 b c h w) - mean x b c

/-- The unbiased variance of channel (b, c). -/
def var (x : SX.Idx → EReal) (b : Fin 32) (c : Fin 256) : EReal :=
  chanSum (fun h w => dev x b c h w * dev x b c h w) * ((1 / 3135 : ℝ) : EReal)

/-- The result at (b, c, h, w). -/
def outAt (x : SX.Idx → EReal) (μ σ : SP.Idx → EReal) (b : Fin 32) (c : Fin 256) (h w : Fin 56) : EReal :=
  dev x b c h w * Ideal.rsqrt (var x b c + eps) * σ (ix2 b c) + μ (ix2 b c)

/-- The result array. -/
def G (x : SX.Idx → EReal) (μ σ : SP.Idx → EReal) : SX.Idx → EReal :=
  fun i => outAt x μ σ (i 0) (i 1) (i 2) (i 3)

/-! ## The affine parameters

Both programs compute the per-channel parameters by the same host operations: the combine weights times a bank of
prototypes, the positive bank where the sample's label is zero and the negative bank elsewhere. The chain is carried
as one function of its operands and never opened: the two programs apply it to the same arguments. Its shape facts
are arguments, so that each program supplies its own witnesses of them. -/

/-- `where(label == 0, w · pos, w · neg)` over [32, 256], as the host operations compose it. -/
def mixed (D : DotDims (⟨2, ![32, 64]⟩ : Shape) (⟨2, ![64, 256]⟩ : Shape) (⟨2, ![32, 256]⟩ : Shape))
    (h0 : (⟨0, ![]⟩ : Shape).BroadcastsInDim (⟨1, ![32]⟩ : Shape) (![] : Fin 0 → Fin 1))
    (h1 : (⟨1, ![32]⟩ : Shape).BroadcastsInDim (⟨2, ![32, 1]⟩ : Shape) (![0] : Fin 1 → Fin 2))
    (h2 : (⟨2, ![32, 1]⟩ : Shape).BroadcastsInDim (⟨2, ![32, 256]⟩ : Shape) (![0, 1] : Fin 2 → Fin 2))
    (label : IVec (⟨1, ![32]⟩ : Shape) 32) (w : FVec Ideal (⟨2, ![32, 64]⟩ : Shape) .f32)
    (pos neg : FVec Ideal (⟨2, ![64, 256]⟩ : Shape) .f32) : FVec Ideal (⟨2, ![32, 256]⟩ : Shape) .f32 :=
  select (broadcastInDim (⟨2, ![32, 256]⟩ : Shape) ![0, 1] h2 (broadcastInDim (⟨2, ![32, 1]⟩ : Shape) ![0] h1
      (cmpi .eq label (broadcastInDim (⟨1, ![32]⟩ : Shape) ![] h0 (constantI (⟨0, ![]⟩ : Shape) 32 0#32)))))
    (Host.dotGeneral (F := Ideal) D none w pos) (Host.dotGeneral (F := Ideal) D none w neg)

theorem G_ix4 (x : SX.Idx → EReal) (μ σ : SP.Idx → EReal) (b : Fin 32) (c : Fin 256) (h w : Fin 56) :
    G x μ σ (ix4 b c h w) = outAt x μ σ b c h w := rfl

/-! ## Signs -/

/-- A square is never below zero on the extended reals, at the infinities too. -/
theorem zero_le_mul_self (d : EReal) : 0 ≤ d * d := by
  induction d using EReal.rec with
  | bot => rw [EReal.bot_mul_bot]; exact le_top
  | top => rw [EReal.top_mul_top]; exact le_top
  | coe r => rw [← EReal.coe_mul]; exact_mod_cast mul_self_nonneg r

theorem chanSum_nonneg (y : Fin 56 → Fin 56 → EReal) (hy : ∀ h w, 0 ≤ y h w) : 0 ≤ chanSum y :=
  Finset.sum_nonneg fun h _ => Finset.sum_nonneg fun w _ => hy h w

theorem var_nonneg (x : SX.Idx → EReal) (b : Fin 32) (c : Fin 256) : 0 ≤ var x b c :=
  EReal.mul_nonneg (chanSum_nonneg _ fun _ _ => zero_le_mul_self _) (by exact_mod_cast (by norm_num : (0 : ℝ) ≤ 1 / 3135))

/-- The stabilizer is a positive real. -/
theorem eps_pos : 0 < eps := by
  unfold eps
  simp [Ideal.ofBits, Ideal.ieee, -EReal.coe_mul]

/-- So the variance plus the stabilizer is above zero, whatever the input. -/
theorem var_eps_pos (x : SX.Idx → EReal) (b : Fin 32) (c : Fin 256) : 0 < var x b c + eps :=
  lt_of_lt_of_le eps_pos (le_add_of_nonneg_left (var_nonneg x b c))

/-! ## The law -/

/-- Above zero (`⊤` included) the product with the reciprocal square root is the quotient by the square root, for
    every numerator: at a real `r > 0` both are the product with `(√r)⁻¹`, at `⊤` both are the product with `0`. -/
theorem mul_rsqrt_eq_div_sqrt (d a : EReal) (ha : 0 < a) : d * Ideal.rsqrt a = Ideal.div d (Ideal.sqrt a) := by
  induction a using EReal.rec with
  | bot => exact absurd ha (not_lt.mpr bot_le)
  | top => rw [Ideal.rsqrt_top, Ideal.sqrt_top, Ideal.div, if_neg (by simp), EReal.inv_top]
  | coe r =>
    have hr : 0 < r := EReal.coe_pos.mp ha
    rw [Ideal.rsqrt_coe, if_neg (not_lt.mpr hr.le), if_neg hr.ne', Ideal.sqrt_coe, if_neg (not_lt.mpr hr.le),
      Ideal.div_coe (Real.sqrt_ne_zero'.mpr hr), one_div]

/-- The mean as a quotient: the sum divided by 3136. -/
theorem mean_eq_div (x : SX.Idx → EReal) (b : Fin 32) (c : Fin 256) :
    mean x b c = Ideal.div (chanSum (fun h w => x (ix4 b c h w))) ((3136 : ℝ) : EReal) :=
  (Ideal.div_coe (by norm_num : (3136 : ℝ) ≠ 0) _).symm

/-- The variance as a quotient: the sum of squared deviations divided by 3135. -/
theorem var_eq_div (x : SX.Idx → EReal) (b : Fin 32) (c : Fin 256) :
    var x b c = Ideal.div (chanSum (fun h w => dev x b c h w * dev x b c h w)) ((3135 : ℝ) : EReal) :=
  (Ideal.div_coe (by norm_num : (3135 : ℝ) ≠ 0) _).symm

/-- The result with the deviation DIVIDED by the square root. -/
theorem outAt_eq_div (x : SX.Idx → EReal) (μ σ : SP.Idx → EReal) (b : Fin 32) (c : Fin 256) (h w : Fin 56) :
    outAt x μ σ b c h w
      = Ideal.div (dev x b c h w) (Ideal.sqrt (var x b c + eps)) * σ (ix2 b c) + μ (ix2 b c) := by
  unfold outAt
  rw [mul_rsqrt_eq_div_sqrt _ _ (var_eps_pos x b c)]

end Cert.NormAffine

end
-- ==== Proof.KernelPayload.lean ====
/-
  The kernel body's arithmetic, read at an index.

  The body loads a block of 256 rows × 3136 lanes (`x0`) and two columns of 256 entries (`x1`, the mixed mean, and
  `x2`, the mixed standard deviation) and stores, at row p and lane q,

      (x0[p,q] − m_p) · (v_p + ε)^(-1/2) · x2[p] + x1[p],

  `m_p` the row's sum times the constant named 1/3136 and `v_p` the sum of the row's squared deviations times the
  constant named 1/3135. The body's term is restated in a small vocabulary — the vector of deviations, then the
  stored vector — equal to the printed payload by unfolding, and each stage is read at (p, q): a lane sum kept as a
  column is the `Fin 3136`-indexed sum of the row, and a column spread over the lanes reads the row's entry.
-/
import proofs.«110012_j36971078484033_2_alg».proof.Proof.Gen.KernelIdeal.Skeleton
import proofs.«110012_j36971078484033_2_alg».proof.Proof.Spec
import Idealize.ShloMosaic.Lib.Pipeline.Value
import Idealize.ShloMosaic.Lib.ValueIdx
import Idealize.ShloMosaic.PureOps.Ideal.Laws

noncomputable section

namespace Cert.KernelIdeal.KValue

open Idealize.ShloMosaic Idealize.ShloMosaic.ValueIdx Cert.KernelIdeal

variable [Facts]
open Facts₀ Facts

/-! ## The two named reciprocals -/

theorem inv_3136 : Named.named (F := Ideal) κ "inv_3136" (φ := .f32) 0x39A72F05#32 = ((1 / 3136 : ℝ) : EReal) :=
  IdealRules.named_const.ideal_named_scalar _ _ _ _ rfl

theorem inv_3135 : Named.named (F := Ideal) κ "inv_3135" (φ := .f32) 0x39A73CAC#32 = ((1 / 3135 : ℝ) : EReal) :=
  IdealRules.named_const.ideal_named_scalar _ _ _ _ rfl

/-! ## The two layout steps -/

/-- A sum over the lanes, kept as a column: at row `p` it is the sum of the row's 3136 entries. -/
theorem laneSum_col (v : FVec Ideal S256x3136 .f32) (p : Fin 256) (z : Fin 1) :
    shapeCast S256x1 (multiReduction .add [1] S256 v 0x00000000#32 reduces_S256x3136_S256 (.inl rfl) rfl) shapeCasts_S256_S256x1 (ix2 p z)
      = ∑ k : Fin 3136, v (ix2 p k) := by
  rw [shapeCast_apply _ _ (ix2 p z) (ix1 p) (by
    rw [Shape.rowMajor_val_one, Shape.rowMajor_val_two]
    show p.val = p.val * 1 + z.val
    have := z.isLt; omega)]
  refine (Ideal.multiReduction_add_single v 0x00000000#32 reduces_S256x3136_S256 (.inl rfl) rfl (ix1 p)).trans ?_
  refine Finset.sum_congr rfl fun k _ => congrArg v ?_
  funext a; apply Fin.ext
  match a with
  | ⟨0, _⟩ => rfl
  | ⟨1, _⟩ => rfl

/-- A column spread over the lanes reads, at (p, q), the column's entry of row `p`. -/
theorem colSpread (u : FVec Ideal S256x1 .f32) (p : Fin 256) (q : Fin 3136) :
    broadcastTo S256x3136 u broadcasts_S256x1_S256x3136 (ix2 p q) = u (ix2 p 0) :=
  broadcastTo_apply u _ (ix2 p q) (ix2 p 0) (fun a => by
    match a with
    | ⟨0, _⟩ => rfl
    | ⟨1, _⟩ => rfl)

/-! ## The row statistics -/

/-- The mean of row `p` of a block. -/
def rowMean (x0 : Vec Ideal S256x3136 .f32) (p : Fin 256) : EReal :=
  (∑ k : Fin 3136, x0 (ix2 p k)) * ((1 / 3136 : ℝ) : EReal)

/-- An entry's deviation from its row's mean. -/
def rowDev (x0 : Vec Ideal S256x3136 .f32) (p : Fin 256) (q : Fin 3136) : EReal :=
  x0 (ix2 p q) - rowMean x0 p

/-- The unbiased variance of row `p`. -/
def rowVar (x0 : Vec Ideal S256x3136 .f32) (p : Fin 256) : EReal :=
  (∑ k : Fin 3136, rowDev x0 p k * rowDev x0 p k) * ((1 / 3135 : ℝ) : EReal)

/-! ## The body's term in stages -/

/-- The vector of deviations, as the body computes it. -/
def devVec (x0 : Vec Ideal S256x3136 .f32) : FVec Ideal S256x3136 .f32 :=
  subf (shapeCast S256x3136 x0 shapeCasts_S256x3136_S256x3136)
    (broadcastTo S256x3136
      (mulf (shapeCast S256x1 (multiReduction .add [1] S256 (shapeCast S256x3136 x0 shapeCasts_S256x3136_S256x3136) 0x00000000#32
          reduces_S256x3136_S256 (.inl rfl) rfl) shapeCasts_S256_S256x1)
        (broadcast S256x1 (Named.named (F := Ideal) κ "inv_3136" 0x39A72F05#32)))
      broadcasts_S256x1_S256x3136)

/-- The column of reciprocal square roots of variance plus stabilizer, as the body computes it. -/
def scaleCol (x0 : Vec Ideal S256x3136 .f32) : FVec Ideal S256x1 .f32 :=
  rsqrt (addf
    (mulf (shapeCast S256x1 (multiReduction .add [1] S256 (mulf (devVec x0) (devVec x0)) 0x00000000#32
        reduces_S256x3136_S256 (.inl rfl) rfl) shapeCasts_S256_S256x1)
      (broadcast S256x1 (Named.named (F := Ideal) κ "inv_3135" 0x39A73CAC#32)))
    (broadcast S256x1 (Scalar.ofBits (F := Ideal) .f32 0x3727C5AC#32)))

/-- The stored vector, as the body computes it. -/
def payVec (x0 : Vec Ideal S256x3136 .f32) (x1 x2 : Vec Ideal S256x1 .f32) : FVec Ideal S256x3136 .f32 :=
  addf
    (mulf (mulf (devVec x0) (broadcastTo S256x3136 (scaleCol x0) broadcasts_S256x1_S256x3136))
      (broadcastTo S256x3136 (shapeCast S256x1 x2 shapeCasts_S256x1_S256x1) broadcasts_S256x1_S256x3136))
    (broadcastTo S256x3136 (shapeCast S256x1 x1 shapeCasts_S256x1_S256x1) broadcasts_S256x1_S256x3136)

/-- The printed payload is that term. -/
theorem pay_eq (x0 : Vec Ideal S256x3136 .f32) (x1 x2 : Vec Ideal S256x1 .f32) :
    Gen.k0_pay1 (F := Ideal) x0 x1 x2 = payVec x0 x1 x2 := rfl

/-! ## The stages at an index -/

theorem devVec_apply (x0 : Vec Ideal S256x3136 .f32) (p : Fin 256) (q : Fin 3136) :
    devVec x0 (ix2 p q) = rowDev x0 p q := by
  unfold devVec rowDev rowMean
  rw [shapeCast_self]
  exact congrArg (x0 (ix2 p q) - ·) ((colSpread _ p q).trans (congrArg₂ (· * ·) (laneSum_col x0 p 0) inv_3136))

theorem scaleCol_apply (x0 : Vec Ideal S256x3136 .f32) (p : Fin 256) :
    scaleCol x0 (ix2 p 0) = Ideal.rsqrt (rowVar x0 p + Cert.NormAffine.eps) := by
  unfold scaleCol rowVar
  refine congrArg Ideal.rsqrt (congrArg (· + Cert.NormAffine.eps) (congrArg₂ (· * ·) ?_ inv_3135))
  refine (laneSum_col _ p 0).trans (Finset.sum_congr rfl fun k _ => ?_)
  exact congrArg₂ (· * ·) (devVec_apply x0 p k) (devVec_apply x0 p k)

/-- The stored value at row `p`, lane `q`. -/
theorem pay_apply (x0 : Vec Ideal S256x3136 .f32) (x1 x2 : Vec Ideal S256x1 .f32) (p : Fin 256) (q : Fin 3136) :
    Gen.k0_pay1 (F := Ideal) x0 x1 x2 (ix2 p q)
      = rowDev x0 p q * Ideal.rsqrt (rowVar x0 p + Cert.NormAffine.eps) * x2 (ix2 p 0) + x1 (ix2 p 0) := by
  rw [pay_eq]
  unfold payVec
  have e1 := colSpread (scaleCol x0) p q
  have e2 := (colSpread (shapeCast S256x1 x2 shapeCasts_S256x1_S256x1) p q).trans
    (congrFun (shapeCast_self x2 shapeCasts_S256x1_S256x1) (ix2 p 0))
  have e3 := (colSpread (shapeCast S256x1 x1 shapeCasts_S256x1_S256x1) p q).trans
    (congrFun (shapeCast_self x1 shapeCasts_S256x1_S256x1) (ix2 p 0))
  rw [scaleCol_apply] at e1
  exact congrArg₂ (· + ·) (congrArg₂ (· * ·) (congrArg₂ (· * ·) (devVec_apply x0 p q) e1) e2) e3

end Cert.KernelIdeal.KValue

end
-- ==== Proof.KernelBlocks.lean ====
/-
  The idealized kernel's windows, read. The region finds three arrays the host wrote: the activations relaid as
  8192 rows (one per channel (b, c), row b·256 + c) of 3136 lanes (lane h·56 + w), and the mixed mean and the mixed
  standard deviation relaid as 8192-entry columns. Grid point t stages rows 256·t … 256·t + 255 of each: exactly the
  256 channels of sample b = t. So an input block's entry at row p is the array's entry at row 256·t + p.
-/
import proofs.«110012_j36971078484033_2_alg».proof.Proof.Gen.KernelIdeal.Frame
import proofs.«110012_j36971078484033_2_alg».proof.Proof.Spec
import Idealize.ShloMosaic.Lib.Pipeline.Value
import Idealize.ShloMosaic.Lib.StableHlo.Run
import Idealize.ShloMosaic.Lib.ValueIdx
import proofs.«110012_j36971078484033_2_alg».proof.Proof.KernelPayload

noncomputable section

namespace Cert.KernelIdeal.KValue

open Idealize.ShloMosaic Idealize.ShloMosaic.TcCoe Idealize.ShloMosaic.ValueIdx Idealize.SL.Sem Cert.KernelIdeal
open Idealize.ShloMosaic.Pipeline (Dat)

open Facts₀ Facts

variable (m : (ℓ : Loc nD τ sig) → Buf (Elt Ideal) ℓ)

/-- The mixed mean and the mixed standard deviation of the launch memory's arguments. -/
def muArr (c : Dev nD) : FVec Ideal S32x256 .f32 :=
  Cert.NormAffine.mixed dot_S32x64_S64x256_S32x256_1_0_0_1_n_n bcast_S_S32 bcast_S32_S32x1_0 bcast_S32x1_S32x256_0_1
    (m ((c : Thread nD τ).loc main_arg1)) (m ((c : Thread nD τ).loc main_arg2)) (m ((c : Thread nD τ).loc main_arg3))
    (m ((c : Thread nD τ).loc main_arg5))

def sigArr (c : Dev nD) : FVec Ideal S32x256 .f32 :=
  Cert.NormAffine.mixed dot_S32x64_S64x256_S32x256_1_0_0_1_n_n bcast_S_S32 bcast_S32_S32x1_0 bcast_S32x1_S32x256_0_1
    (m ((c : Thread nD τ).loc main_arg1)) (m ((c : Thread nD τ).loc main_arg2)) (m ((c : Thread nD τ).loc main_arg4))
    (m ((c : Thread nD τ).loc main_arg6))

/-! ## The three arrays as the region finds them -/

theorem V_rows (c : Dev nD) : (Gen.V m c main_v9 : S8192x3136.Idx → EReal)
    = shapeCast S8192x3136 (m ((c : Thread nD τ).loc main_arg0)) shapeCasts_S32x256x56x56_S8192x3136 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

theorem V_mu (c : Dev nD) : (Gen.V m c main_v10 : S8192x1.Idx → EReal)
    = shapeCast S8192x1 (muArr m c) shapeCasts_S32x256_S8192x1 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

theorem V_sig (c : Dev nD) : (Gen.V m c main_v11 : S8192x1.Idx → EReal)
    = shapeCast S8192x1 (sigArr m c) shapeCasts_S32x256_S8192x1 := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-! ## The index maps, decided over the 32 grid points -/

/-- Every window's block index at point `t` is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem hz : (![0, 0] : Fin 2 → Nat) = fun _ => 0 := funext fun a => by fin_cases a <;> rfl

/-! ## The input blocks -/

/-- The activations' block at point `t`: rows 256·t … 256·t + 255 of the relaid array. -/
theorem iblk0_apply (c : Dev nD) (t : Fin cfg0.N) (y : S256x3136.Idx) (k : S8192x3136.Idx)
    (hk0 : (k 0).val = 256 * t.val + (y 0).val) (hk1 : (k 1).val = (y 1).val) :
    (Gen.iblk m c 0 t : Vec Ideal S256x3136 .f32) y = (Gen.V m c main_v9 : S8192x3136.Idx → EReal) k := by
  obtain ⟨e0, e1, -⟩ := idx_facts t
  unfold Gen.iblk
  rw [View.read_apply]
  show Gen.V m c main_v9 _ = Gen.V m c main_v9 _
  refine congrArg (Gen.V m c main_v9) (funext fun a => Fin.ext ?_)
  match a with
  | ⟨0, _⟩ => show win0_0.index t (0 : Fin 2) * 256 + 1 * (y 0).val = (k 0).val; rw [e0, hk0]; omega
  | ⟨1, _⟩ => show win0_0.index t (1 : Fin 2) * 3136 + 1 * (y 1).val = (k 1).val; rw [e1, hk1]; omega

/-- The mixed mean's block at point `t`. -/
theorem iblk1_apply (c : Dev nD) (t : Fin cfg0.N) (y : S256x1.Idx) (k : S8192x1.Idx)
    (hk0 : (k 0).val = 256 * t.val + (y 0).val) (hk1 : (k 1).val = (y 1).val) :
    (Gen.iblk m c 1 t : Vec Ideal S256x1 .f32) y = (Gen.V m c main_v10 : S8192x1.Idx → EReal) k := by
  obtain ⟨-, -, e0, e1, -⟩ := idx_facts t
  unfold Gen.iblk
  rw [View.read_apply]
  show Gen.V m c main_v10 _ = Gen.V m c main_v10 _
  refine congrArg (Gen.V m c main_v10) (funext fun a => Fin.ext ?_)
  match a with
  | ⟨0, _⟩ => show win0_1.index t (0 : Fin 2) * 256 + 1 * (y 0).val = (k 0).val; rw [e0, hk0]; omega
  | ⟨1, _⟩ => show win0_1.index t (1 : Fin 2) * 1 + 1 * (y 1).val = (k 1).val; rw [e1, hk1]; omega

/-- The mixed standard deviation's block at point `t`. -/
theorem iblk2_apply (c : Dev nD) (t : Fin cfg0.N) (y : S256x1.Idx) (k : S8192x1.Idx)
    (hk0 : (k 0).val = 256 * t.val + (y 0).val) (hk1 : (k 1).val = (y 1).val) :
    (Gen.iblk m c 2 t : Vec Ideal S256x1 .f32) y = (Gen.V m c main_v11 : S8192x1.Idx → EReal) k := by
  obtain ⟨-, -, -, -, e0, e1, -⟩ := idx_facts t
  unfold Gen.iblk
  rw [View.read_apply]
  show Gen.V m c main_v11 _ = Gen.V m c main_v11 _
  refine congrArg (Gen.V m c main_v11) (funext fun a => Fin.ext ?_)
  match a with
  | ⟨0, _⟩ => show win0_2.index t (0 : Fin 2) * 256 + 1 * (y 0).val = (k 0).val; rw [e0, hk0]; omega
  | ⟨1, _⟩ => show win0_2.index t (1 : Fin 2) * 1 + 1 * (y 1).val = (k 1).val; rw [e1, hk1]; omega

/-! ## The relaid arrays at an index -/

/-- Row b·256 + c, lane h·56 + w of the relaid activations is entry (b, c, h, w). -/
theorem rows_apply (X : FVec Ideal S32x256x56x56 .f32) (k : S8192x3136.Idx) (b : Fin 32) (c : Fin 256) (h w : Fin 56)
    (h0 : (k 0).val = b.val * 256 + c.val) (h1 : (k 1).val = h.val * 56 + w.val) :
    shapeCast S8192x3136 X shapeCasts_S32x256x56x56_S8192x3136 k = X (ix4 b c h w) :=
  shapeCast_apply X _ k (ix4 b c h w) (by
    rw [Shape.rowMajor_val_four, Shape.rowMajor_val_two]
    show ((b.val * 256 + c.val) * 56 + h.val) * 56 + w.val = (k 0).val * 3136 + (k 1).val
    rw [h0, h1]; ring)

/-- Entry b·256 + c of a relaid [32, 256] array is entry (b, c). -/
theorem col_apply (P : FVec Ideal S32x256 .f32) (k : S8192x1.Idx) (b : Fin 32) (c : Fin 256)
    (h0 : (k 0).val = b.val * 256 + c.val) :
    shapeCast S8192x1 P shapeCasts_S32x256_S8192x1 k = P (ix2 b c) :=
  shapeCast_apply P _ k (ix2 b c) (by
    rw [Shape.rowMajor_val_two, Shape.rowMajor_val_two]
    show b.val * 256 + c.val = (k 0).val * 1 + (k 1).val
    have := (k 1).isLt
    have h1 : (k 1).val < 1 := this
    rw [h0]; omega)

/-! ## A sum over the 3136 lanes is the sum over the 56 × 56 positions -/

theorem lane_sum (f : Fin 56 → Fin 56 → EReal) :
    (∑ k : Fin 3136, f ⟨k.val / 56, by have := k.isLt; omega⟩ ⟨k.val % 56, Nat.mod_lt _ (by norm_num)⟩)
      = Cert.NormAffine.chanSum f := by
  unfold Cert.NormAffine.chanSum
  rw [← Fintype.sum_prod_type']
  refine (Fintype.sum_equiv (finProdFinEquiv (m := 56) (n := 56)).symm _ _ fun k => ?_)
  rfl

/-! ## What a block holds, in the specification's words -/

/-- A block whose activations are the 256 channels of sample `b`, lane h·56 + w position (h, w), and whose two
    columns are the mixed mean and standard deviation of those channels, stores the specified result of channel
    (b, p) at position (q / 56, q % 56). -/
theorem block_value (x0 : Vec Ideal S256x3136 .f32) (x1 x2 : Vec Ideal S256x1 .f32)
    (X : Cert.NormAffine.SX.Idx → EReal) (μ σ : Cert.NormAffine.SP.Idx → EReal) (b : Fin 32)
    (h0 : ∀ (p : Fin 256) (k : Fin 3136), x0 (ix2 p k)
      = X (ix4 b p (⟨k.val / 56, by have := k.isLt; omega⟩ : Fin 56) (⟨k.val % 56, Nat.mod_lt _ (by norm_num)⟩ : Fin 56)))
    (h1 : ∀ p : Fin 256, x1 (ix2 p 0) = μ (ix2 b p)) (h2 : ∀ p : Fin 256, x2 (ix2 p 0) = σ (ix2 b p))
    (p : Fin 256) (q : Fin 3136) :
    Gen.k0_pay1 (F := Ideal) x0 x1 x2 (ix2 p q)
      = Cert.NormAffine.outAt X μ σ b p (⟨q.val / 56, by have := q.isLt; omega⟩ : Fin 56) (⟨q.val % 56, Nat.mod_lt _ (by norm_num)⟩ : Fin 56) := by
  have hmean : rowMean x0 p = Cert.NormAffine.mean X b p := by
    unfold rowMean Cert.NormAffine.mean
    rw [← lane_sum]
    exact congrArg (· * _) (Finset.sum_congr rfl fun k _ => h0 p k)
  have hdev : ∀ k : Fin 3136, rowDev x0 p k
      = Cert.NormAffine.dev X b p (⟨k.val / 56, by have := k.isLt; omega⟩ : Fin 56) (⟨k.val % 56, Nat.mod_lt _ (by norm_num)⟩ : Fin 56) := by
    intro k
    unfold rowDev Cert.NormAffine.dev
    rw [hmean, h0 p k]
  have hvar : rowVar x0 p = Cert.NormAffine.var X b p := by
    unfold rowVar Cert.NormAffine.var
    rw [← lane_sum]
    exact congrArg (· * _) (Finset.sum_congr rfl fun k _ => by rw [hdev k])
  rw [pay_apply, hdev q, hvar, h1 p, h2 p]
  rfl

/-! ## The output array, row by row -/

/-- The [8192, 3136] array the region leaves: row b·256 + c, lane h·56 + w holds the result at (b, c, h, w). -/
def rowsArr (X : Cert.NormAffine.SX.Idx → EReal) (μ σ : Cert.NormAffine.SP.Idx → EReal) : S8192x3136.Idx → EReal :=
  fun k => Cert.NormAffine.outAt X μ σ
    (⟨(k 0).val / 256, by have h : (k 0).val < 8192 := (k 0).isLt; omega⟩ : Fin 32)
    (⟨(k 0).val % 256, Nat.mod_lt _ (by norm_num)⟩ : Fin 256)
    (⟨(k 1).val / 56, by have h : (k 1).val < 3136 := (k 1).isLt; omega⟩ : Fin 56)
    (⟨(k 1).val % 56, Nat.mod_lt _ (by norm_num)⟩ : Fin 56)

theorem rowsArr_apply (X : Cert.NormAffine.SX.Idx → EReal) (μ σ : Cert.NormAffine.SP.Idx → EReal) (k : S8192x3136.Idx)
    (b : Fin 32) (c : Fin 256) (h w : Fin 56) (h0 : (k 0).val = b.val * 256 + c.val) (h1 : (k 1).val = h.val * 56 + w.val) :
    rowsArr X μ σ k = Cert.NormAffine.outAt X μ σ b c h w := by
  unfold rowsArr
  have hc := c.isLt; have hw := w.isLt
  congr 1 <;> apply Fin.ext <;> simp only [] <;> omega

/-- WHAT POINT `t` WRITES BACK: rows 256·t … 256·t + 255 of `rowsArr`. -/
theorem flushed_eq (c : Dev nD) (t : Fin cfg0.N) :
    (Gen.dats m 0 c).flushed 3 t
      = ((cfg0.win 3).blk t).view.read (Elt Ideal) (rowsArr (m ((c : Thread nD τ).loc main_arg0)) (muArr m c) (sigArr m c)) := by
  show (cfg0.win 3).cut (grid0.coords t) ((Gen.dats m 0 c).after 3 t) = _
  rw [Gen.after0_3]
  unfold Gen.out0_3
  rw [View.canon_unit_zero hz]
  simp only [View.ld_unit_zero (S := S256x3136) hz, View.ld_unit_zero (S := S256x1) hz]
  obtain ⟨-, -, -, -, -, -, e0, e1⟩ := idx_facts t
  have hN : cfg0.N = 32 := Gen.N_0
  have ht : t.val < 32 := hN ▸ t.isLt
  funext j
  have hj0 : (j 0).val < 256 := (j 0).isLt
  have hj1 : (j 1).val < 3136 := (j 1).isLt
  show Gen.k0_pay1 (F := Ideal) (Gen.iblk m c 0 t) (Gen.iblk m c 1 t) (Gen.iblk m c 2 t) j
    = rowsArr (m ((c : Thread nD τ).loc main_arg0)) (muArr m c) (sigArr m c) (((cfg0.win 3).blk t).view.emb j)
  have hjix : (j : S256x3136.Idx) = ix2 (⟨(j 0).val, hj0⟩ : Fin 256) (⟨(j 1).val, hj1⟩ : Fin 3136) := by
    funext a; match a with
    | ⟨0, _⟩ => rfl
    | ⟨1, _⟩ => rfl
  rw [rowsArr_apply _ _ _ _ (⟨t.val, ht⟩ : Fin 32) (⟨(j 0).val, hj0⟩ : Fin 256)
    (⟨(j 1).val / 56, by omega⟩ : Fin 56) (⟨(j 1).val % 56, Nat.mod_lt _ (by norm_num)⟩ : Fin 56)
    (by show win0_3.index t (0 : Fin 2) * 256 + 1 * (j 0).val = t.val * 256 + (j 0).val; rw [e0]; omega)
    (by show win0_3.index t (1 : Fin 2) * 3136 + 1 * (j 1).val = (j 1).val / 56 * 56 + (j 1).val % 56; rw [e1]; omega)]
  refine (congrArg (fun y : S256x3136.Idx =>
      Gen.k0_pay1 (F := Ideal) (Gen.iblk m c 0 t) (Gen.iblk m c 1 t) (Gen.iblk m c 2 t) y) hjix).trans
    (block_value (Gen.iblk m c 0 t) (Gen.iblk m c 1 t) (Gen.iblk m c 2 t) (m ((c : Thread nD τ).loc main_arg0)) (muArr m c) (sigArr m c)
      (⟨t.val, ht⟩ : Fin 32) ?_ ?_ ?_ (⟨(j 0).val, hj0⟩ : Fin 256) (⟨(j 1).val, hj1⟩ : Fin 3136))
  · intro p k
    rw [iblk0_apply m c t (ix2 p k) (ix2 (⟨256 * t.val + p.val, by have := p.isLt; omega⟩ : Fin 8192) k) rfl rfl, V_rows]
    exact rows_apply _ _ (⟨t.val, ht⟩ : Fin 32) p _ _ (by show 256 * t.val + p.val = t.val * 256 + p.val; omega)
      (by show k.val = k.val / 56 * 56 + k.val % 56; omega)
  · intro p
    rw [iblk1_apply m c t (ix2 p 0) (ix2 (⟨256 * t.val + p.val, by have := p.isLt; omega⟩ : Fin 8192) (0 : Fin 1)) rfl rfl, V_mu]
    exact col_apply _ _ (⟨t.val, ht⟩ : Fin 32) p (by show 256 * t.val + p.val = t.val * 256 + p.val; omega)
  · intro p
    rw [iblk2_apply m c t (ix2 p 0) (ix2 (⟨256 * t.val + p.val, by have := p.isLt; omega⟩ : Fin 8192) (0 : Fin 1)) rfl rfl, V_sig]
    exact col_apply _ _ (⟨t.val, ht⟩ : Fin 32) p (by show 256 * t.val + p.val = t.val * 256 + p.val; omega)

/-! ## The array after the run -/

/-- An index of the output array is in point `t`'s block iff each coordinate is in the block's range on its axis. -/
theorem mem_blk (t : Fin cfg0.N) (i : S8192x3136.Idx) :
    i ∈ ((cfg0.win 3).blk t).view.set ↔ ∀ a : Fin 2, win0_3.index t a * S256x3136.size a ≤ (i a).val
      ∧ (i a).val < win0_3.index t a * S256x3136.size a + S256x3136.size a := by
  show i ∈ ((View.whole main_v12).slice (win0_3.rect t)).set ↔ _
  rw [View.set_slice_whole, Rect.mem_set_unit]
  exact Iff.rfl

/-- Row r lies in the block of point r / 256, so the 32 blocks cover the array and it ends holding `rowsArr`. -/
theorem final (c : Dev nD) :
    (Gen.dats m 0 c).arrAt 3 cfg0.N = rowsArr (m ((c : Thread nD τ).loc main_arg0)) (muArr m c) (sigArr m c) :=
  (Gen.dats m 0 c).arrAt_eq_of_cover 3 (rowsArr (m ((c : Thread nD τ).loc main_arg0)) (muArr m c) (sigArr m c))
    (fun t _ => flushed_eq m c t) fun i => by
      have hN : cfg0.N = 32 := Gen.N_0
      have hi0 : ((i : S8192x3136.Idx) 0).val < 8192 := ((i : S8192x3136.Idx) 0).isLt
      have hi1 : ((i : S8192x3136.Idx) 1).val < 3136 := ((i : S8192x3136.Idx) 1).isLt
      have ht : ((i : S8192x3136.Idx) 0).val / 256 < cfg0.N := by rw [hN]; omega
      obtain ⟨-, -, -, -, -, -, e0, e1⟩ := idx_facts ⟨((i : S8192x3136.Idx) 0).val / 256, ht⟩
      refine ⟨⟨((i : S8192x3136.Idx) 0).val / 256, ht⟩, Gen.flush0_3 _, ?_⟩
      rw [mem_blk]
      intro a
      match a with
      | ⟨0, _⟩ =>
        show win0_3.index ⟨((i : S8192x3136.Idx) 0).val / 256, ht⟩ (0 : Fin 2) * 256 ≤ ((i : S8192x3136.Idx) 0).val
          ∧ ((i : S8192x3136.Idx) 0).val < win0_3.index ⟨((i : S8192x3136.Idx) 0).val / 256, ht⟩ (0 : Fin 2) * 256 + 256
        rw [e0]; show ((i : S8192x3136.Idx) 0).val / 256 * 256 ≤ _ ∧ _ < ((i : S8192x3136.Idx) 0).val / 256 * 256 + 256; omega
      | ⟨1, _⟩ =>
        show win0_3.index ⟨((i : S8192x3136.Idx) 0).val / 256, ht⟩ (1 : Fin 2) * 3136 ≤ ((i : S8192x3136.Idx) 1).val
          ∧ ((i : S8192x3136.Idx) 1).val < win0_3.index ⟨((i : S8192x3136.Idx) 0).val / 256, ht⟩ (1 : Fin 2) * 3136 + 3136
        rw [e1]; omega

end Cert.KernelIdeal.KValue

end
-- ==== Proof.KernelRun.lean ====
/-
  The idealized kernel's run, read: after the region the host relays the [8192, 3136] array back to
  [32, 256, 56, 56], which puts row b·256 + c, lane h·56 + w at (b, c, h, w) — the specified result there —, and no
  operation writes an argument.
-/
import proofs.«110012_j36971078484033_2_alg».proof.Proof.KernelBlocks

noncomputable section

namespace Cert.KernelIdeal.KValue

open Idealize.ShloMosaic Idealize.ShloMosaic.TcCoe Idealize.ShloMosaic.ValueIdx Idealize.SL.Sem Cert.KernelIdeal
open Idealize.ShloMosaic.Pipeline (Dat)
open Facts₀ Facts

variable (m : (ℓ : Loc nD τ sig) → Buf (Elt Ideal) ℓ) (ρ : Dev nD → PrngReg)

/-- The host line after the region: the result buffer is the region's output array relaid. -/
theorem tail_eq (c : Dev nD) :
    Pipeline.afterTail₀ cfgs (Gen.dats m) 0 (Gen.V0 m) [Gen.hostOps1] c main_v13
      = (shapeCast S32x256x56x56 ((Gen.dats m 0 c).arrAt 3 cfg0.N : S8192x3136.Idx → EReal)
          shapeCasts_S8192x3136_S32x256x56x56 : S32x256x56x56.Idx → EReal) := by
  unfold Pipeline.afterTail₀
  show StableHlo.after Gen.hostOps1 _ (Proc.devRef .tc main_v13) = _
  after_results
  exact congrArg (fun A : S8192x3136.Idx → EReal => shapeCast S32x256x56x56 A shapeCasts_S8192x3136_S32x256x56x56)
    (Pipeline.withArrays_arr spec0 Gen.launch0.win.arr_inj c _ _ 3)

/-- The rows relaid are the specified array. -/
theorem relaid_rows (X : Cert.NormAffine.SX.Idx → EReal) (μ σ : Cert.NormAffine.SP.Idx → EReal) :
    shapeCast S32x256x56x56 (rowsArr X μ σ) shapeCasts_S8192x3136_S32x256x56x56 = Cert.NormAffine.G X μ σ := by
  funext i
  obtain ⟨b, c, h, w, rfl⟩ : ∃ (b : Fin 32) (c : Fin 256) (h w : Fin 56), i = ix4 b c h w :=
    ⟨i 0, i 1, i 2, i 3, eq_ix4 i⟩
  rw [Cert.NormAffine.G_ix4]
  have hb := b.isLt; have hc := c.isLt; have hh := h.isLt; have hw := w.isLt
  rw [shapeCast_apply _ _ (ix4 b c h w)
    (ix2 (⟨b.val * 256 + c.val, by omega⟩ : Fin 8192) (⟨h.val * 56 + w.val, by omega⟩ : Fin 3136)) (by
      rw [Shape.rowMajor_val_two, Shape.rowMajor_val_four]
      show (b.val * 256 + c.val) * 3136 + (h.val * 56 + w.val) = ((b.val * 256 + c.val) * 56 + h.val) * 56 + w.val
      ring)]
  exact rowsArr_apply X μ σ _ b c h w rfl rfl

/-- Every weakly fair execution of the idealized kernel's program terminates with the result buffer at the specified
    array of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v13)
        = Cert.NormAffine.G (m ((c.tc : Thread nD τ).loc main_arg0)) (muArr m c) (sigArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(((h c).2 main_v13 (Pipeline.mem_restRefs_of main_v13 (by decide) (by decide))).trans (tail_eq m c)).trans
        (by rw [final m c]; exact relaid_rows _ _ _),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c)⟩)
    (Gen.run_main m ρ)

end Cert.KernelIdeal.KValue

end
-- ==== Proof.RefTerm.lean ====
/-
  What the reference computes, as ONE term of its seven argument arrays: its host operations composed in program
  order, cut into named stages — a channel's sum kept as a [32, 256, 1, 1] column, the mean, the deviations, the
  divisor `3136 − ddof` as the program computes it from the integer `ddof`, the guarded variance, and the result.
  Nothing is proved here; the stages are the vocabulary in which the reference's run states its result and in which
  that result is read at an index.
-/
import proofs.«110012_j36971078484033_2_alg».proof.ReferenceIdeal
import proofs.«110012_j36971078484033_2_alg».proof.Proof.Spec

noncomputable section

namespace Cert.ReferenceIdeal.RefValue

open Idealize.ShloMosaic Cert.ReferenceIdeal

variable [Facts]
open Facts₀ Facts

/-- A [32, 256, 1, 1] column spread over the 56 × 56 positions of each channel. -/
def spread (v : FVec Ideal S32x256x1x1 .f32) : FVec Ideal S32x256x56x56 .f32 :=
  broadcastInDim S32x256x56x56 ![0, 1, 2, 3] bcast_S32x256x1x1_S32x256x56x56_0_1_2_3 v

/-- A scalar spread over the [32, 256, 1, 1] column. -/
def splat (v : FVec Ideal S_ .f32) : FVec Ideal S32x256x1x1 .f32 :=
  broadcastInDim S32x256x1x1 ![] bcast_S_S32x256x1x1 v

/-- A [32, 256] array as a [32, 256, 1, 1] column. -/
def column (v : FVec Ideal S32x256 .f32) : FVec Ideal S32x256x1x1 .f32 :=
  broadcastInDim S32x256x1x1 ![0, 1] bcast_S32x256_S32x256x1x1_0_1 v

/-- Each channel's sum over its 56 × 56 positions, from the zero word, as a column. -/
def sumK (y : FVec Ideal S32x256x56x56 .f32) : FVec Ideal S32x256x1x1 .f32 :=
  column (Host.reduceAdd (F := Ideal) y (constant (F := Ideal) S_ .f32 0x00000000#32) reducesTo_S32x256x56x56_S32x256_d2_3 h_S_)

/-- Each channel's mean: the sum divided by 3136.0. -/
def meanK (x : FVec Ideal S32x256x56x56 .f32) : FVec Ideal S32x256x1x1 .f32 :=
  Host.divf (F := Ideal) (sumK x) (splat (constant (F := Ideal) S_ .f32 0x45440000#32))

/-- The deviations from the channel means. -/
def devs (x : FVec Ideal S32x256x56x56 .f32) : FVec Ideal S32x256x56x56 .f32 :=
  subf x (spread (meanK x))

/-- The variance's divisor as the program computes it: 3136.0 minus the integer `ddof` converted to a float. -/
def divisor (ddof : IVec S_ 32) : FVec Ideal S_ .f32 :=
  subf (constant (F := Ideal) S_ .f32 0x45440000#32) (sitofp (F := Ideal) .f32 ddof)

/-- The variance: the sum of squared deviations over the divisor where the divisor is above zero, the NaN word elsewhere. -/
def varK (x : FVec Ideal S32x256x56x56 .f32) (ddof : IVec S_ 32) : FVec Ideal S32x256x1x1 .f32 :=
  select (broadcastInDim S32x256x1x1 ![] bcast_S_S32x256x1x1 (cmpf (F := Ideal) .ogt (divisor ddof) (constant (F := Ideal) S_ .f32 0x00000000#32)))
    (Host.divf (F := Ideal) (sumK (mulf (devs x) (devs x))) (splat (divisor ddof)))
    (splat (id (constant (F := Ideal) S_ .f32 0x7FC00000#32)))

/-- The reference's result: deviations over the square root of variance plus the stabilizer, times the mixed standard
    deviation, plus the mixed mean. -/
def refTerm (x : FVec Ideal S32x256x56x56 .f32) (label : IVec S32 32) (w : FVec Ideal S32x64 .f32)
    (meanPos stdPos meanNeg stdNeg : FVec Ideal S64x256 .f32) : FVec Ideal S32x256x56x56 .f32 :=
  addf
    (mulf
      (Host.divf (F := Ideal) (devs x)
        (spread (Host.sqrt (F := Ideal) (addf (varK x (constantI S_ 32 1#32)) (splat (constant (F := Ideal) S_ .f32 0x3727C5AC#32))))))
      (spread (column (Cert.NormAffine.mixed dot_S32x64_S64x256_S32x256_1_0_0_1_n_n bcast_S_S32 bcast_S32_S32x1_0
        bcast_S32x1_S32x256_0_1 label w stdPos stdNeg))))
    (spread (column (Cert.NormAffine.mixed dot_S32x64_S64x256_S32x256_1_0_0_1_n_n bcast_S_S32 bcast_S32_S32x1_0
      bcast_S32x1_S32x256_0_1 label w meanPos meanNeg)))

end Cert.ReferenceIdeal.RefValue

end
-- ==== Proof.RefRun.lean ====
/-
  The reference program's run. Its @main, with the three outlined functions unfolded at their calls, is a straight
  line of fifty-six host operations, each writing a buffer of its own. Run in order from any memory, the line ends
  with the result buffer at the operations' composed term of the seven argument arrays — the term the stages of
  RefTerm.lean name — and with the argument buffers, which no operation writes, unchanged.
-/
import proofs.«110012_j36971078484033_2_alg».proof.ReferenceIdeal
import proofs.«110012_j36971078484033_2_alg».proof.Proof.RefTerm
import Idealize.ShloMosaic.Lib.StableHlo.Run

noncomputable section

namespace Cert.ReferenceIdeal.RefRun

open Idealize.ShloMosaic Idealize.ShloMosaic.TcCoe Idealize.SL.Sem Idealize.ShloMosaic.StableHlo Cert.ReferenceIdeal

variable [Facts]
open Facts₀ Facts

variable {F : FTy → Type} [FloatOps F]

/-- The operations of @main in program order, the outlined functions' operations in place of their calls: the
    channel sums and means, the variance with its guard, the normalized activations, the four prototype mixes,
    the label's selection between them, and the scale and shift. -/
abbrev ops : List (HloOp τ sig (Elt F)) :=
  [ nullary main_cst (constant S_ .f32 0x00000000#32),
    binary main_arg0 main_cst main_v0 ((fun x v => Host.reduceAdd x v reducesTo_S32x256x56x56_S32x256_d2_3 h_S_) : (⟨S32x256x56x56, .f32⟩ : BufTy).Contents (Elt F) → (⟨S_, .f32⟩ : BufTy).Contents (Elt F) → (⟨S32x256, .f32⟩ : BufTy).Contents (Elt F)),
    unary main_v0 main_v1 (broadcastInDim S32x256x1x1 ![0, 1] bcast_S32x256_S32x256x1x1_0_1 : (⟨S32x256, .f32⟩ : BufTy).Contents (Elt F) → (⟨S32x256x1x1, .f32⟩ : BufTy).Contents (Elt F)),
    nullary main_cst_0 (constant S_ .f32 0x45440000#32),
    unary main_cst_0 main_v2 (broadcastInDim S32x256x1x1 ![] bcast_S_S32x256x1x1 : (⟨S_, .f32⟩ : BufTy).Contents (Elt F) → (⟨S32x256x1x1, .f32⟩ : BufTy).Contents (Elt F)),
    binary main_v1 main_v2 main_v3 (Host.divf : (⟨S32x256x1x1, .f32⟩ : BufTy).Contents (Elt F) → (⟨S32x256x1x1, .f32⟩ : BufTy).Contents (Elt F) → (⟨S32x256x1x1, .f32⟩ : BufTy).Contents (Elt F)),
    nullary main_c (constantI S_ 32 1#32),
    TRef.nullary main_call0.cst (constant S_ .f32 0x00000000#32),
    TRef.binary (.of main_arg0 : TRef sig ⟨S32x256x56x56, .f32⟩) main_call0.cst main_call0.v0 (fun x v => Host.reduceAdd x v reducesTo_S32x256x56x56_S32x256_d2_3 h_S_),
    TRef.unary main_call0.v0 main_call0.v1 (broadcastInDim S32x256x1x1 ![0, 1] bcast_S32x256_S32x256x1x1_0_1),
    TRef.nullary main_call0.cst_0 (constant S_ .f32 0x45440000#32),
    TRef.unary main_call0.cst_0 main_call0.v2 (broadcastInDim S32x256x1x1 ![] bcast_S_S32x256x1x1),
    TRef.binary main_call0.v1 main_call0.v2 main_call0.v3 Host.divf,
    TRef.unary main_call0.v3 main_call0.v4 (broadcastInDim S32x256x56x56 ![0, 1, 2, 3] bcast_S32x256x1x1_S32x256x56x56_0_1_2_3),
    TRef.binary (.of main_arg0 : TRef sig ⟨S32x256x56x56, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x45440000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S32x256x56x56_S32x256_d2_3 h_S_),
    TRef.unary main_call0.v9 main_call0.v10 (broadcastInDim S32x256x1x1 ![0, 1] bcast_S32x256_S32x256x1x1_0_1),
    TRef.unary main_call0.v8 main_call0.v11 (broadcastInDim S32x256x1x1 ![] bcast_S_S32x256x1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S32x256x1x1 ![] bcast_S_S32x256x1x1),
    TRef.ternary main_call0.v13 main_call0.v12 main_call0.call0.v1 main_call0.call0.v2 (fun p a b => select (broadcastInDim S32x256x1x1 ![] bcast_S_S32x256x1x1 p) a b),
    unary main_v3 main_v5 (broadcastInDim S32x256x56x56 ![0, 1, 2, 3] bcast_S32x256x1x1_S32x256x56x56_0_1_2_3 : (⟨S32x256x1x1, .f32⟩ : BufTy).Contents (Elt F) → (⟨S32x256x56x56, .f32⟩ : BufTy).Contents (Elt F)),
    binary main_arg0 main_v5 main_v6 (subf : (⟨S32x256x56x56, .f32⟩ : BufTy).Contents (Elt F) → (⟨S32x256x56x56, .f32⟩ : BufTy).Contents (Elt F) → (⟨S32x256x56x56, .f32⟩ : BufTy).Contents (Elt F)),
    nullary main_cst_1 (constant S_ .f32 0x3727C5AC#32),
    unary main_cst_1 main_v7 (broadcastInDim S32x256x1x1 ![] bcast_S_S32x256x1x1 : (⟨S_, .f32⟩ : BufTy).Contents (Elt F) → (⟨S32x256x1x1, .f32⟩ : BufTy).Contents (Elt F)),
    binary main_v4 main_v7 main_v8 (addf : (⟨S32x256x1x1, .f32⟩ : BufTy).Contents (Elt F) → (⟨S32x256x1x1, .f32⟩ : BufTy).Contents (Elt F) → (⟨S32x256x1x1, .f32⟩ : BufTy).Contents (Elt F)),
    unary main_v8 main_v9 (Host.sqrt : (⟨S32x256x1x1, .f32⟩ : BufTy).Contents (Elt F) → (⟨S32x256x1x1, .f32⟩ : BufTy).Contents (Elt F)),
    unary main_v9 main_v10 (broadcastInDim S32x256x56x56 ![0, 1, 2, 3] bcast_S32x256x1x1_S32x256x56x56_0_1_2_3 : (⟨S32x256x1x1, .f32⟩ : BufTy).Contents (Elt F) → (⟨S32x256x56x56, .f32⟩ : BufTy).Contents (Elt F)),
    binary main_v6 main_v10 main_v11 (Host.divf : (⟨S32x256x56x56, .f32⟩ : BufTy).Contents (Elt F) → (⟨S32x256x56x56, .f32⟩ : BufTy).Contents (Elt F) → (⟨S32x256x56x56, .f32⟩ : BufTy).Contents (Elt F)),
    binary main_arg2 main_arg3 main_v12 ((fun l r => Host.dotGeneral dot_S32x64_S64x256_S32x256_1_0_0_1_n_n none l r) : (⟨S32x64, .f32⟩ : BufTy).Contents (Elt F) → (⟨S64x256, .f32⟩ : BufTy).Contents (Elt F) → (⟨S32x256, .f32⟩ : BufTy).Contents (Elt F)),
    binary main_arg2 main_arg4 main_v13 ((fun l r => Host.dotGeneral dot_S32x64_S64x256_S32x256_1_0_0_1_n_n none l r) : (⟨S32x64, .f32⟩ : BufTy).Contents (Elt F) → (⟨S64x256, .f32⟩ : BufTy).Contents (Elt F) → (⟨S32x256, .f32⟩ : BufTy).Contents (Elt F)),
    binary main_arg2 main_arg5 main_v14 ((fun l r => Host.dotGeneral dot_S32x64_S64x256_S32x256_1_0_0_1_n_n none l r) : (⟨S32x64, .f32⟩ : BufTy).Contents (Elt F) → (⟨S64x256, .f32⟩ : BufTy).Contents (Elt F) → (⟨S32x256, .f32⟩ : BufTy).Contents (Elt F)),
    binary main_arg2 main_arg6 main_v15 ((fun l r => Host.dotGeneral dot_S32x64_S64x256_S32x256_1_0_0_1_n_n none l r) : (⟨S32x64, .f32⟩ : BufTy).Contents (Elt F) → (⟨S64x256, .f32⟩ : BufTy).Contents (Elt F) → (⟨S32x256, .f32⟩ : BufTy).Contents (Elt F)),
    nullary main_c_2 (constantI S_ 32 0#32),
    unary main_c_2 main_v16 (broadcastInDim S32 ![] bcast_S_S32 : (⟨S_, .i32⟩ : BufTy).Contents (Elt F) → (⟨S32, .i32⟩ : BufTy).Contents (Elt F)),
    binary main_arg1 main_v16 main_v17 (cmpi .eq : (⟨S32, .i32⟩ : BufTy).Contents (Elt F) → (⟨S32, .i32⟩ : BufTy).Contents (Elt F) → (⟨S32, .i1⟩ : BufTy).Contents (Elt F)),
    unary main_v17 main_v18 (broadcastInDim S32x1 ![0] bcast_S32_S32x1_0 : (⟨S32, .i1⟩ : BufTy).Contents (Elt F) → (⟨S32x1, .i1⟩ : BufTy).Contents (Elt F)),
    TRef.unary (.of main_v18 : TRef sig ⟨S32x1, .i1⟩) main_call1.v0 (broadcastInDim S32x256 ![0, 1] bcast_S32x1_S32x256_0_1),
    TRef.ternary main_call1.v0 (.of main_v12 : TRef sig ⟨S32x256, .f32⟩) (.of main_v14 : TRef sig ⟨S32x256, .f32⟩) main_call1.v1 select,
    TRef.unary (.of main_v18 : TRef sig ⟨S32x1, .i1⟩) main_call2.v0 (broadcastInDim S32x256 ![0, 1] bcast_S32x1_S32x256_0_1),
    TRef.ternary main_call2.v0 (.of main_v13 : TRef sig ⟨S32x256, .f32⟩) (.of main_v15 : TRef sig ⟨S32x256, .f32⟩) main_call2.v1 select,
    unary main_v20 main_v21 (broadcastInDim S32x256x1x1 ![0, 1] bcast_S32x256_S32x256x1x1_0_1 : (⟨S32x256, .f32⟩ : BufTy).Contents (Elt F) → (⟨S32x256x1x1, .f32⟩ : BufTy).Contents (Elt F)),
    unary main_v21 main_v22 (broadcastInDim S32x256x56x56 ![0, 1, 2, 3] bcast_S32x256x1x1_S32x256x56x56_0_1_2_3 : (⟨S32x256x1x1, .f32⟩ : BufTy).Contents (Elt F) → (⟨S32x256x56x56, .f32⟩ : BufTy).Contents (Elt F)),
    binary main_v11 main_v22 main_v23 (mulf : (⟨S32x256x56x56, .f32⟩ : BufTy).Contents (Elt F) → (⟨S32x256x56x56, .f32⟩ : BufTy).Contents (Elt F) → (⟨S32x256x56x56, .f32⟩ : BufTy).Contents (Elt F)),
    unary main_v19 main_v24 (broadcastInDim S32x256x1x1 ![0, 1] bcast_S32x256_S32x256x1x1_0_1 : (⟨S32x256, .f32⟩ : BufTy).Contents (Elt F) → (⟨S32x256x1x1, .f32⟩ : BufTy).Contents (Elt F)),
    unary main_v24 main_v25 (broadcastInDim S32x256x56x56 ![0, 1, 2, 3] bcast_S32x256x1x1_S32x256x56x56_0_1_2_3 : (⟨S32x256x1x1, .f32⟩ : BufTy).Contents (Elt F) → (⟨S32x256x56x56, .f32⟩ : BufTy).Contents (Elt F)),
    binary main_v23 main_v25 main_v26 (addf : (⟨S32x256x56x56, .f32⟩ : BufTy).Contents (Elt F) → (⟨S32x256x56x56, .f32⟩ : BufTy).Contents (Elt F) → (⟨S32x256x56x56, .f32⟩ : BufTy).Contents (Elt F)) ]

-- the chain of fifty-six sequenced steps is re-associated one step at a time: deeper than the default recursion bound
set_option maxRecDepth 2048 in
/-- @main is that straight line: the functions' definitions unfolded at their calls, both sides are one chain of
    steps once sequencing is re-associated. -/
theorem main_eq (c : Dev nD) : main (F := F) c = seq ops := by
  simp only [main, fn_var.body, fn_where.body, fn_where_0.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore's references only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., binary_bufs_sub .., binary_bufs_sub .., binary_bufs_sub .., binary_bufs_sub .., nullary_bufs_sub .., unary_bufs_sub .., binary_bufs_sub .., unary_bufs_sub .., unary_bufs_sub .., ternary_bufs_sub .., unary_bufs_sub .., ternary_bufs_sub .., unary_bufs_sub .., unary_bufs_sub .., binary_bufs_sub .., unary_bufs_sub .., unary_bufs_sub .., binary_bufs_sub ..⟩

/-! ## What the line leaves in the buffers -/

/-- The result buffer ends at the operations' composed term of the argument buffers' contents: each operation's
    value at its own buffer, every other buffer as it was; the typed references' transports are the identity at
    these literal buffers, and the composed term is the staged one with its stages' names unfolded. -/
theorem out_eq (V : Valuation τ sig (Elt Ideal)) :
    after (ops (F := Ideal)) V (Proc.devRef .tc main_v26)
      = RefValue.refTerm (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  after_results_simp
  simp only [TRef.toBuf, TRef.ofBuf, cast_eq]
  unfold RefValue.refTerm RefValue.varK RefValue.devs RefValue.meanK RefValue.sumK RefValue.divisor RefValue.column
    RefValue.splat RefValue.spread
  rfl

/-- No operation writes argument 0's buffer: it keeps its contents. -/
theorem arg0_eq (V : Valuation τ sig (Elt F)) :
    after ops V (Proc.devRef .tc main_arg0) = V (Proc.devRef .tc main_arg0) := by
  after_results_simp

/-- No operation writes argument 1's buffer: it keeps its contents. -/
theorem arg1_eq (V : Valuation τ sig (Elt F)) :
    after ops V (Proc.devRef .tc main_arg1) = V (Proc.devRef .tc main_arg1) := by
  after_results_simp

/-- No operation writes argument 2's buffer: it keeps its contents. -/
theorem arg2_eq (V : Valuation τ sig (Elt F)) :
    after ops V (Proc.devRef .tc main_arg2) = V (Proc.devRef .tc main_arg2) := by
  after_results_simp

/-- No operation writes argument 3's buffer: it keeps its contents. -/
theorem arg3_eq (V : Valuation τ sig (Elt F)) :
    after ops V (Proc.devRef .tc main_arg3) = V (Proc.devRef .tc main_arg3) := by
  after_results_simp

/-- No operation writes argument 4's buffer: it keeps its contents. -/
theorem arg4_eq (V : Valuation τ sig (Elt F)) :
    after ops V (Proc.devRef .tc main_arg4) = V (Proc.devRef .tc main_arg4) := by
  after_results_simp

/-- No operation writes argument 5's buffer: it keeps its contents. -/
theorem arg5_eq (V : Valuation τ sig (Elt F)) :
    after ops V (Proc.devRef .tc main_arg5) = V (Proc.devRef .tc main_arg5) := by
  after_results_simp

/-- No operation writes argument 6's buffer: it keeps its contents. -/
theorem arg6_eq (V : Valuation τ sig (Elt F)) :
    after ops V (Proc.devRef .tc main_arg6) = V (Proc.devRef .tc main_arg6) := by
  after_results_simp

/-! ## The run -/

/-- On the device, from any memory with zero counters: every weakly fair execution of @main terminates with the
    result buffer at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26)
        = Cert.ReferenceIdeal.RefValue.refTerm (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v26).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.RefRun

end
-- ==== Proof.RefValueSum.lean ====
/-
  A channel's sum, read off the host's two-axis reduction.

  The reduction over the axes [2, 3] of a [32, 256, 56, 56] array gives, at (b, c), the initial value plus the sum of
  the entries whose index drops to (b, c). Those indices are exactly the (b, c, h, w), one for each pair (h, w) of
  positions, so the sum is the double sum over h and w; from the zero word the initial value adds nothing.
-/
import proofs.«110012_j36971078484033_2_alg».proof.Proof.RefTerm
import Idealize.ShloMosaic.Lib.ValueIdx
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal

/-- An index that drops to (b, c) has first coordinate b … -/
theorem drop_coord0 (hR : S32x256x56x56.ReducesTo [2, 3] S32x256) (i : S32x256x56x56.Idx) (b : Fin 32) (c : Fin 256)
    (hi : hR.drop i = ix2 b c) : (i 0 : Nat) = b := by
  have h0 : (hR.drop i 0 : Nat) = i 0 := hR.drop_apply_val_of_eq i 0 0
  have := congrArg Fin.val (congrFun hi 0)
  rw [h0] at this
  exact this

/-- … and second coordinate c. -/
theorem drop_coord1 (hR : S32x256x56x56.ReducesTo [2, 3] S32x256) (i : S32x256x56x56.Idx) (b : Fin 32) (c : Fin 256)
    (hi : hR.drop i = ix2 b c) : (i 1 : Nat) = c := by
  have h1 : (hR.drop i 1 : Nat) = i 1 := hR.drop_apply_val_of_eq i 1 1
  have := congrArg Fin.val (congrFun hi 1)
  rw [h1] at this
  exact this

/-- Every (b, c, h, w) drops to (b, c). -/
theorem drop_ix4 (hR : S32x256x56x56.ReducesTo [2, 3] S32x256) (b : Fin 32) (c : Fin 256) (h w : Fin 56) :
    hR.drop (ix4 b c h w) = ix2 b c := by
  funext a
  match a with
  | ⟨0, _⟩ => exact Fin.ext (hR.drop_apply_val_of_eq (ix4 b c h w) 0 0)
  | ⟨1, _⟩ => exact Fin.ext (hR.drop_apply_val_of_eq (ix4 b c h w) 1 1)

/-- The sum over the indices that drop to (b, c) is the channel's double sum. -/
theorem sum_fibre (hR : S32x256x56x56.ReducesTo [2, 3] S32x256) (y : S32x256x56x56.Idx → EReal) (b : Fin 32) (c : Fin 256) :
    ∑ i ∈ Finset.univ.filter (fun i => hR.drop i = ix2 b c), y i
      = Cert.NormAffine.chanSum (fun h w => y (ix4 b c h w)) := by
  unfold Cert.NormAffine.chanSum
  refine Eq.trans ?_ (Fintype.sum_prod_type (fun p : Fin 56 × Fin 56 => y (ix4 b c p.1 p.2)))
  have hl : ∀ i ∈ Finset.univ.filter (fun i => hR.drop i = ix2 b c), ix4 b c (i 2) (i 3) = i := by
    intro i hi
    have hi' := (Finset.mem_filter.mp hi).2
    have e0 := drop_coord0 hR i b c hi'
    have e1 := drop_coord1 hR i b c hi'
    funext a
    match a with
    | ⟨0, _⟩ => exact Fin.ext e0.symm
    | ⟨1, _⟩ => exact Fin.ext e1.symm
    | ⟨2, _⟩ => rfl
    | ⟨3, _⟩ => rfl
  refine Finset.sum_nbij' (fun i => ((i 2 : Fin 56), (i 3 : Fin 56))) (fun p => ix4 b c p.1 p.2) ?_ ?_ ?_ ?_ ?_
  · intro i _; exact Finset.mem_univ _
  · intro p _; exact Finset.mem_filter.mpr ⟨Finset.mem_univ _, drop_ix4 hR b c p.1 p.2⟩
  · intro i hi; exact hl i hi
  · intro p _; rfl
  · intro i hi; exact congrArg y (hl i hi).symm

variable [Facts]
open Facts₀ Facts

/-- The host's sum over a channel's positions, from the zero word, at (b, c). -/
theorem reduceAdd_chan (y : FVec Ideal S32x256x56x56 .f32) (b : Fin 32) (c : Fin 256) :
    Host.reduceAdd (F := Ideal) y (constant (F := Ideal) S_ .f32 0x00000000#32) reducesTo_S32x256x56x56_S32x256_d2_3 h_S_ (ix2 b c)
      = Cert.NormAffine.chanSum (fun h w => y (ix4 b c h w)) := by
  refine Eq.trans (b := Ideal.ofBits .f32 0x00000000#32
      + ∑ i ∈ Finset.univ.filter (fun i => (reducesTo_S32x256x56x56_S32x256_d2_3).drop i = ix2 b c), y i) rfl ?_
  rw [Ideal.ofBits_zero_f32, zero_add]
  exact sum_fibre _ y b c

end Cert.ReferenceIdeal.RefValue

end
-- ==== Proof.RefValueLit.lean ====
/-
  The reference's literals, each evaluated once.

  The word 0x45440000 is the real 3136 (the number of positions of a channel); the integer word 1, read signed and
  converted, is the real 1; so the variance's divisor, 3136 minus that, is the real 3135, which is above zero: the
  guard's bit is 1 and the guarded quotient is always the one taken.
-/
import proofs.«110012_j36971078484033_2_alg».proof.Proof.RefTerm
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal

/-- The word 0x45440000 is 3136. -/
theorem lit_3136 : Ideal.ofBits .f32 0x45440000#32 = ((3136 : ℝ) : EReal) := by
  simp [Ideal.ofBits, Ideal.ieee, -EReal.coe_mul]; norm_num

variable [Facts]
open Facts₀ Facts

/-- The divisor computed from the integer 1 is 3135. -/
theorem divisor_one : divisor (constantI S_ 32 1#32) ix0 = ((3135 : ℝ) : EReal) := by
  have h : divisor (constantI S_ 32 1#32) ix0
      = Ideal.ofBits .f32 0x45440000#32 - ((((1#32 : BitVec 32).toInt : ℤ) : ℝ) : EReal) := rfl
  rw [h, lit_3136, show (1#32 : BitVec 32).toInt = 1 by decide, Int.cast_one, ← EReal.coe_sub]
  norm_num

/-- It is above zero, so the guard's bit is 1. -/
theorem guard_one :
    cmpf (F := Ideal) .ogt (divisor (constantI S_ 32 1#32)) (constant (F := Ideal) S_ .f32 0x00000000#32) ix0 = 1#1 := by
  have h : cmpf (F := Ideal) .ogt (divisor (constantI S_ 32 1#32)) (constant (F := Ideal) S_ .f32 0x00000000#32) ix0
      = Ideal.cmp .ogt (divisor (constantI S_ 32 1#32) ix0) (Ideal.ofBits .f32 0x00000000#32) := rfl
  have hpos : (0 : EReal) < ((3135 : ℝ) : EReal) := by exact_mod_cast (by norm_num : (0 : ℝ) < 3135)
  rw [h, divisor_one, Ideal.ofBits_zero_f32]
  simp [Ideal.cmp, hpos]

end Cert.ReferenceIdeal.RefValue

end
-- ==== Proof.RefValue.lean ====
/-
  The reference's value, index by index.

  At (b, c, h, w) the reference is the deviation of the entry from its channel's mean, divided by the square root of
  the channel's variance plus the stabilizer, times the mixed standard deviation at (b, c), plus the mixed mean at
  (b, c). Each stage of the reference is read at an index by one lemma: a spread column reads its channel's entry,
  a channel's sum is the double sum over its positions, the mean is that sum over 3136, the variance the sum of the
  squared deviations over 3135 (the guard on the divisor always holds), and the pointwise operations are the
  extended reals'. The result is the quotient form of the function the specification names.
-/
import proofs.«110012_j36971078484033_2_alg».proof.Proof.RefValueSum
import proofs.«110012_j36971078484033_2_alg».proof.Proof.RefValueLit
import Idealize.ShloMosaic.Lib.Pipeline.Value

noncomputable section

namespace Cert.ReferenceIdeal.RefValue

open Idealize.ShloMosaic Idealize.ShloMosaic.ValueIdx Cert.ReferenceIdeal

/-- The host's quotient at an index is the extended reals' division of the entries. -/
theorem hostDivf_apply {s : Shape} {φ : FTy} (a d : FVec Ideal s φ) (i : s.Idx) :
    Host.divf (F := Ideal) a d i = Ideal.div (a i) (d i) := rfl

/-- The host's square root at an index is the extended reals' square root of the entry. -/
theorem hostSqrt_apply {s : Shape} {φ : FTy} (a : FVec Ideal s φ) (i : s.Idx) :
    Host.sqrt (F := Ideal) a i = Ideal.sqrt (a i) := rfl

variable [Facts]
open Facts₀ Facts

/-! ## The three broadcasts -/

/-- A spread column reads, at every position of channel (b, c), the column's entry of that channel. -/
theorem spread_apply (v : FVec Ideal S32x256x1x1 .f32) (b : Fin 32) (c : Fin 256) (h w : Fin 56) :
    spread v (ix4 b c h w) = v (ix4 b c 0 0) :=
  broadcastInDim_apply _ _ v (ix4 b c h w) (ix4 b c 0 0) fun a => by
    match a with
    | ⟨0, _⟩ => rfl
    | ⟨1, _⟩ => rfl
    | ⟨2, _⟩ => rfl
    | ⟨3, _⟩ => rfl

/-- A [32, 256] array as a column reads its (b, c) entry. -/
theorem column_apply (v : FVec Ideal S32x256 .f32) (b : Fin 32) (c : Fin 256) :
    column v (ix4 b c 0 0) = v (ix2 b c) :=
  broadcastInDim_apply _ _ v (ix4 b c 0 0) (ix2 b c) fun a => by
    match a with
    | ⟨0, _⟩ => rfl
    | ⟨1, _⟩ => rfl

/-- A scalar spread over the column reads the scalar everywhere, whatever its entries are. -/
theorem bcast0_apply {α : Type} (v : S_.Idx → α) (j : S32x256x1x1.Idx) :
    broadcastInDim S32x256x1x1 ![] bcast_S_S32x256x1x1 v j = v ix0 :=
  broadcastInDim_apply _ _ v j ix0 fun a => a.elim0

theorem splat_apply (v : FVec Ideal S_ .f32) (j : S32x256x1x1.Idx) : splat v j = v ix0 :=
  bcast0_apply v j

/-! ## The stages -/

/-- The sum column at channel (b, c) is the channel's double sum. -/
theorem sumK_apply (y : FVec Ideal S32x256x56x56 .f32) (b : Fin 32) (c : Fin 256) :
    sumK y (ix4 b c 0 0) = Cert.NormAffine.chanSum (fun h w => y (ix4 b c h w)) := by
  unfold sumK
  rw [column_apply, reduceAdd_chan]

/-- The mean column at channel (b, c) is the channel's mean. -/
theorem meanK_apply (x : FVec Ideal S32x256x56x56 .f32) (b : Fin 32) (c : Fin 256) :
    meanK x (ix4 b c 0 0) = Cert.NormAffine.mean x b c := by
  rw [Cert.NormAffine.mean_eq_div]
  unfold meanK
  rw [hostDivf_apply, sumK_apply, splat_apply, constant_apply, lit_3136]

/-- The deviations at (b, c, h, w). -/
theorem devs_apply (x : FVec Ideal S32x256x56x56 .f32) (b : Fin 32) (c : Fin 256) (h w : Fin 56) :
    devs x (ix4 b c h w) = Cert.NormAffine.dev x b c h w := by
  unfold devs Cert.NormAffine.dev
  rw [subf_apply, spread_apply, meanK_apply]

/-- The guarded variance column at channel (b, c) is the channel's unbiased variance: the divisor 3135 is above zero,
    so the guard takes the quotient. -/
theorem varK_apply (x : FVec Ideal S32x256x56x56 .f32) (b : Fin 32) (c : Fin 256) :
    varK x (constantI S_ 32 1#32) (ix4 b c 0 0) = Cert.NormAffine.var x b c := by
  rw [Cert.NormAffine.var_eq_div]
  unfold varK
  rw [select_apply, bcast0_apply, guard_one, select_one, hostDivf_apply, sumK_apply, splat_apply, divisor_one]
  refine congrArg (fun s => Ideal.div (Cert.NormAffine.chanSum s) ((3135 : ℝ) : EReal)) ?_
  funext h w
  rw [mulf_apply, devs_apply]

/-! ## The result -/

theorem refTerm_eq (x : FVec Ideal S32x256x56x56 .f32) (label : IVec S32 32) (w : FVec Ideal S32x64 .f32)
    (meanPos stdPos meanNeg stdNeg : FVec Ideal S64x256 .f32) :
    refTerm x label w meanPos stdPos meanNeg stdNeg
      = Cert.NormAffine.G x
          (Cert.NormAffine.mixed dot_S32x64_S64x256_S32x256_1_0_0_1_n_n bcast_S_S32 bcast_S32_S32x1_0 bcast_S32x1_S32x256_0_1 label w meanPos meanNeg)
          (Cert.NormAffine.mixed dot_S32x64_S64x256_S32x256_1_0_0_1_n_n bcast_S_S32 bcast_S32_S32x1_0 bcast_S32x1_S32x256_0_1 label w stdPos stdNeg) := by
  funext i
  obtain ⟨b, c, h, w', rfl⟩ : ∃ (b : Fin 32) (c : Fin 256) (h w' : Fin 56), i = ix4 b c h w' :=
    ⟨i 0, i 1, i 2, i 3, eq_ix4 i⟩
  rw [Cert.NormAffine.G_ix4, Cert.NormAffine.outAt_eq_div]
  unfold refTerm Cert.NormAffine.eps
  generalize Cert.NormAffine.mixed dot_S32x64_S64x256_S32x256_1_0_0_1_n_n bcast_S_S32 bcast_S32_S32x1_0
    bcast_S32x1_S32x256_0_1 label w meanPos meanNeg = μ
  generalize Cert.NormAffine.mixed dot_S32x64_S64x256_S32x256_1_0_0_1_n_n bcast_S_S32 bcast_S32_S32x1_0
    bcast_S32x1_S32x256_0_1 label w stdPos stdNeg = σ
  rw [addf_apply, mulf_apply, hostDivf_apply, devs_apply, spread_apply, hostSqrt_apply, addf_apply, varK_apply,
    splat_apply, constant_apply, spread_apply, column_apply, spread_apply, column_apply]

end Cert.ReferenceIdeal.RefValue

end
-- ==== Proof.lean ====
/-
  The proof of the certificate's five claims for an instance-norm with a per-sample affine map.

  Both programs compute, at (b, c, h, w) of a [32, 256, 56, 56] array x,

      (x[b,c,h,w] − m) / √(v + ε) · σ[b,c] + μ[b,c],

  m the mean of channel (b, c)'s 3136 entries, v their unbiased variance, and μ, σ two [32, 256] arrays both
  programs build from the remaining arguments by the same operations.

  The three frame claims: each program runs to the end without fault and leaves its argument arrays as they
  were. The preservation claim: the two reciprocals the kernel multiplies by, 1/3136 and 1/3135, are named
  constants whose values are those reals. The algebraic claim: on the extended reals, from equal arguments, the
  two programs end with equal results. The kernel multiplies a deviation by the reciprocal square root of v + ε
  and takes sums times the named reciprocals; the reference divides by the square root and takes the sums'
  quotients by 3136 and by 3135. A product with 1/n is the quotient by n; and above zero — the infinity included —
  the product with the reciprocal square root is the quotient by the square root, for every numerator. The
  variance is a sum of squares times a positive real, so never below zero, and ε is a positive real: v + ε is
  always above zero, and no finiteness of the arguments is used. So both results are one function G of x, μ, σ.
-/
import proofs.«110012_j36971078484033_2_alg».proof.Defs
import proofs.«110012_j36971078484033_2_alg».proof.Proof.Gen.Kernel
import proofs.«110012_j36971078484033_2_alg».proof.Proof.Gen.Kernel.Skeleton
import proofs.«110012_j36971078484033_2_alg».proof.Proof.Gen.Kernel.Launch
import proofs.«110012_j36971078484033_2_alg».proof.Proof.Gen.Kernel.Points
import proofs.«110012_j36971078484033_2_alg».proof.Proof.Gen.Kernel.Frame
import proofs.«110012_j36971078484033_2_alg».proof.Proof.Gen.KernelIdeal
import proofs.«110012_j36971078484033_2_alg».proof.Proof.Gen.KernelIdeal.Skeleton
import proofs.«110012_j36971078484033_2_alg».proof.Proof.Gen.KernelIdeal.Launch
import proofs.«110012_j36971078484033_2_alg».proof.Proof.Gen.KernelIdeal.Points
import proofs.«110012_j36971078484033_2_alg».proof.Proof.Gen.KernelIdeal.Frame
import proofs.«110012_j36971078484033_2_alg».proof.Proof.Gen.ReferenceIdeal
import proofs.«110012_j36971078484033_2_alg».proof.Proof.Gen.Pre_finite_inputs
import proofs.«110012_j36971078484033_2_alg».proof.Proof.KernelRun
import proofs.«110012_j36971078484033_2_alg».proof.Proof.RefRun
import proofs.«110012_j36971078484033_2_alg».proof.Proof.RefValue
import Idealize.ShloMosaic.Adequacy
import Idealize.ShloMosaic.Init

noncomputable section

namespace Cert.Proof

open Idealize.ShloMosaic Idealize.SL.Sem

/-- The two programs contract the same axes: their dimension records are one record. -/
theorem dot_eq : Cert.ReferenceIdeal.dot_S32x64_S64x256_S32x256_1_0_0_1_n_n
    = Cert.KernelIdeal.dot_S32x64_S64x256_S32x256_1_0_0_1_n_n := rfl

/-- The kernel at the bit-exact instance runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run's statement without the result. -/
theorem frame_ri : Cert.frame_ReferenceIdeal := fun m ρ _ =>
  (θ_run Cert.ReferenceIdeal.defs _ _).mono (fun _ h c => (h c).2) (Cert.ReferenceIdeal.RefRun.run m ρ)

/-- The two named reciprocals have the values their names say. -/
theorem preserves : Cert.preserves_Kernel_KernelIdeal :=
  ⟨IdealRules.named_const.statement Cert.KernelIdeal.κ "inv_3136" .f32 0x39A72F05#32 ((1 / 3136 : ℝ) : EReal) rfl,
   IdealRules.named_const.statement Cert.KernelIdeal.κ "inv_3135" .f32 0x39A73CAC#32 ((1 / 3135 : ℝ) : EReal) rfl⟩

/-- On the extended reals the kernel ends at G of its arguments and the reference at its own term of its
    arguments, which is G of them too; the arguments agree, and the two mixed arrays are the same arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6⟩ := hagree c
  rw [h0, h1, h2, h3, h4, h5, h6]
  refine (Cert.ReferenceIdeal.RefValue.refTerm_eq _ _ _ _ _ _ _).trans ?_
  unfold Cert.KernelIdeal.KValue.muArr Cert.KernelIdeal.KValue.sigArr
  rw [dot_eq] <;> rfl

/-- The five claims, under the generated witnesses of the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
